-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x1 : Shape := ⟨2, ![1600000, 1]⟩
abbrev S1x128 : Shape := ⟨2, ![1, 128]⟩
abbrev S128 : Shape := ⟨1, ![128]⟩
abbrev S128x54 : Shape := ⟨2, ![128, 54]⟩
abbrev S54 : Shape := ⟨1, ![54]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x54 : S_.BroadcastsInDim S128x54 (![] : Fin 0 → Fin S128x54.rank)
  reducesTo_S128x54_S_d0_1 : S128x54.ReducesTo [0, 1] S_
  bcast_S_S54 : S_.BroadcastsInDim S54 (![] : Fin 0 → Fin S54.rank)
  reducesTo_S54_S_d0 : S54.ReducesTo [0] S_

variable [Facts]

def fn_part1 {F : FTy → Type} [FloatOps F] (main_arg5 : FVec F S128x54 .f32) (main_arg6 : FVec F S54 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x54 .f32 := Host.absf main_arg5
  let main_cst_6 : FVec F S_ .f32 := constant S_ .f32 0x7F800000#32
  let main_v20 : FVec F S128x54 .f32 := broadcastInDim S128x54 ![] bcast_S_S128x54 main_cst_6
  let main_v21 : IVec S128x54 1 := cmpf .olt main_v19 main_v20
  let main_c_7 : IVec S_ 1 := constantI S_ 1 1#1
  let main_v22 : IVec S_ 1 := (fun x v => Host.reduce IntOp.andi x v reducesTo_S128x54_S_d0_1 h_S_) main_v21 main_c_7
  let main_v23 : IVec S_ 1 := andi main_v18 main_v22
  let main_v24 : FVec F S54 .f32 := Host.absf main_arg6
  let main_cst_8 : FVec F S_ .f32 := constant S_ .f32 0x7F800000#32
  let main_v25 : FVec F S54 .f32 := broadcastInDim S54 ![] bcast_S_S54 main_cst_8
  let main_v26 : IVec S54 1 := cmpf .olt main_v24 main_v25
  let main_c_9 : IVec S_ 1 := constantI S_ 1 1#1
  let main_v27 : IVec S_ 1 := (fun x v => Host.reduce IntOp.andi x v reducesTo_S54_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000x1 .f32) (main_arg3 : FVec F S1x128 .f32) (main_arg4 : FVec F S128 .f32) (main_arg5 : FVec F S128x54 .f32) (main_arg6 : FVec F S54 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000x1 : Shape := ⟨2, ![1600000, 1]⟩
abbrev S1x128 : Shape := ⟨2, ![1, 128]⟩
abbrev S128 : Shape := ⟨1, ![128]⟩
abbrev S128x54 : Shape := ⟨2, ![128, 54]⟩
abbrev S54 : Shape := ⟨1, ![54]⟩
abbrev S1600000x64 : Shape := ⟨2, ![1600000, 64]⟩
abbrev S8000x1 : Shape := ⟨2, ![8000, 1]⟩
abbrev S8000x64 : Shape := ⟨2, ![8000, 64]⟩
abbrev S8000 : Shape := ⟨1, ![8000]⟩
abbrev S8000x10 : Shape := ⟨2, ![8000, 10]⟩
abbrev S8000x128 : Shape := ⟨2, ![8000, 128]⟩
abbrev S8000x54 : Shape := ⟨2, ![8000, 54]⟩
abbrev S1x54 : Shape := ⟨2, ![1, 54]⟩
abbrev S1x1600000 : Shape := ⟨2, ![1, 1600000]⟩
abbrev S1600000 : Shape := ⟨1, ![1600000]⟩
abbrev S_ : Shape := ⟨0, ![]⟩
abbrev S100000x64 : Shape := ⟨2, ![100000, 64]⟩
abbrev S4000x64 : Shape := ⟨2, ![4000, 64]⟩

abbrev nBuf : Space → Nat
  | .hbm => 24
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x1, .f32⟩
  | .hbm, ⟨3, _⟩ => ⟨S1x128, .f32⟩
  | .hbm, ⟨4, _⟩ => ⟨S128, .f32⟩
  | .hbm, ⟨5, _⟩ => ⟨S128x54, .f32⟩
  | .hbm, ⟨6, _⟩ => ⟨S54, .f32⟩
  | .hbm, ⟨7, _⟩ => ⟨S1600000x64, .f32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000x64, .f32⟩
  | .hbm, ⟨12, _⟩ => ⟨S1600000x1, .i32⟩
  | .hbm, ⟨13, _⟩ => ⟨S100000x64, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S1600000x64, .f32⟩
  | .local _ .vmem, ⟨0, _⟩ => ⟨S8000x1, .f32⟩
  | .local _ .vmem, ⟨1, _⟩ => ⟨S8000x1, .f32⟩
  | .local _ .vmem, ⟨2, _⟩ => ⟨S1x128, .f32⟩
  | .local _ .vmem, ⟨3, _⟩ => ⟨S128, .f32⟩
  | .local _ .vmem, ⟨4, _⟩ => ⟨S128x54, .f32⟩
  | .local _ .vmem, ⟨5, _⟩ => ⟨S54, .f32⟩
  | .local _ .vmem, ⟨6, _⟩ => ⟨S8000x64, .f32⟩
  | .local _ .vmem, ⟨7, _⟩ => ⟨S8000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x54 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S54 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8000x1_S8000x1_0_0 : ∀ a, (![0, 0] : Fin 2 → Nat) a + S8000x1.size a ≤ S8000x1.size a
  h_S8000x1 : 0 < S8000x1.numel
  shapeCasts_S8000x1_S8000 : S8000x1.ShapeCasts S8000
  iota_S8000x10_d1_w32 : S8000x10.Iotas .tc 32 [1]
  shapeCasts_S8000_S8000x1 : S8000.ShapeCasts S8000x1
  broadcasts_S8000x1_S8000x10 : S8000x1.Broadcasts S8000x10
  natLt_1_32 : 1 < 32
  inb_S1x128_S1x128_0_0 : ∀ a, (![0, 0] : Fin 2 → Nat) a + S1x128.size a ≤ S1x128.size a
  h_S1x128 : 0 < S1x128.numel
  inb_S128_S128_0 : ∀ a, (![0] : Fin 1 → Nat) a + S128.size a ≤ S128.size a
  h_S128 : 0 < S128.numel
  broadcasts_S8000x1_S8000x128 : S8000x1.Broadcasts S8000x128
  broadcasts_S1x128_S8000x128 : S1x128.Broadcasts S8000x128
  shapeCasts_S128_S1x128 : S128.ShapeCasts S1x128
  inb_S128x54_S128x54_0_0 : ∀ a, (![0, 0] : Fin 2 → Nat) a + S128x54.size a ≤ S128x54.size a
  h_S128x54 : 0 < S128x54.numel
  inb_S54_S54_0 : ∀ a, (![0] : Fin 1 → Nat) a + S54.size a ≤ S54.size a
  h_S54 : 0 < S54.numel
  bitsLt_bf16_f32 : FTy.bits .bf16 < FTy.bits .f32
  shapeCasts_S54_S1x54 : S54.ShapeCasts S1x54
  broadcasts_S1x54_S8000x54 : S1x54.Broadcasts S8000x54
  concatenates_S8000x10_S8000x54_S8000x64_d1 : Shape.Concatenates [S8000x10, S8000x54] S8000x64 1
  inb_S8000x64_S8000x64_0_0 : ∀ a, (![0, 0] : Fin 2 → Nat) a + S8000x64.size a ≤ S8000x64.size a
  h_S8000x64 : 0 < S8000x64.numel
  slices_S2x1600000_S1x1600000_0_0 : S2x1600000.Slices ![0, 0] S1x1600000
  shapeCasts_S1x1600000_S1600000 : S1x1600000.ShapeCasts S1600000
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  dot_S8000x128_S128x54_S8000x54_1_0_0_1_n_n_wf : DotDims.WF S8000x128 S128x54 S8000x54 [1] [0] [0] [1] [] []
  scatter_S100000x64_S1600000x1_S1600000x64_1_0_0_1_wf : ScatterDims.WF S100000x64 S1600000x1 S1600000x64 [1] [0] [0] 1
  gather_S100000x64_S1600000x1_S1600000x64_1_0_n_n_0_1_164_wf : GatherDims.WF S100000x64 S1600000x1 S1600000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S1600000x1.size a
  hwx0_0 : ∀ i : grid0.Coords, EltTy.bits .f32 = 32 ∨ (Rect.block (s := S1600000x1) S8000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x54.size a ≤ S128x54.size a
  hwx0_3 : ∀ i : grid0.Coords, EltTy.bits .f32 = 32 ∨ (Rect.block (s := S128x54) S128x54.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S54.size a ≤ S54.size a
  hwx0_4 : ∀ i : grid0.Coords, EltTy.bits .f32 = 32 ∨ (Rect.block (s := S54) S54.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S1600000x64.size a
  hwx0_5 : ∀ i : grid0.Coords, EltTy.bits .f32 = 32 ∨ (Rect.block (s := S1600000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S1600000x64.size a
  hwx1_0 : ∀ i : grid1.Coords, EltTy.bits .f32 = 32 ∨ (Rect.block (s := S1600000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S1600000x64.size a
  hwx1_1 : ∀ i : grid1.Coords, EltTy.bits .f32 = 32 ∨ (Rect.block (s := S1600000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S1600000x64.size a
  hwx1_2 : ∀ i : grid1.Coords, EltTy.bits .f32 = 32 ∨ (Rect.block (s := S1600000x64) S4000x64.size (cc1_transform_2 i) (hinb1_2 i)).WholeWords (EltTy.packing .f32)

variable [Facts₀]

def dot_S8000x128_S128x54_S8000x54_1_0_0_1_n_n : DotDims S8000x128 S128x54 S8000x54 where
  lhsContracting := [1]
  rhsContracting := [0]
  lhsNonContracting := [0]
  rhsNonContracting := [1]
  lhsBatch := []
  rhsBatch := []
  wf := dot_S8000x128_S128x54_S8000x54_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf

abbrev win0_0 : Pipeline.Window sig grid0 :=
  Pipeline.Window.ofSpec (Memref.whole main_arg2) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x54.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S54.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x1 : Shape := ⟨2, ![1600000, 1]⟩
abbrev S1x128 : Shape := ⟨2, ![1, 128]⟩
abbrev S128 : Shape := ⟨1, ![128]⟩
abbrev S128x54 : Shape := ⟨2, ![128, 54]⟩
abbrev S54 : Shape := ⟨1, ![54]⟩
abbrev S1600000 : Shape := ⟨1, ![1600000]⟩
abbrev S_ : Shape := ⟨0, ![]⟩
abbrev S1x10 : Shape := ⟨2, ![1, 10]⟩
abbrev S1600000x10 : Shape := ⟨2, ![1600000, 10]⟩
abbrev S1600000x128 : Shape := ⟨2, ![1600000, 128]⟩
abbrev S1600000x54 : Shape := ⟨2, ![1600000, 54]⟩
abbrev S1x54 : Shape := ⟨2, ![1, 54]⟩
abbrev S1600000x64 : Shape := ⟨2, ![1600000, 64]⟩
abbrev S1x1600000 : Shape := ⟨2, ![1, 1600000]⟩
abbrev S100000x64 : Shape := ⟨2, ![100000, 64]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x1, .f32⟩
  | .hbm, ⟨3, _⟩ => ⟨S1x128, .f32⟩
  | .hbm, ⟨4, _⟩ => ⟨S128, .f32⟩
  | .hbm, ⟨5, _⟩ => ⟨S128x54, .f32⟩
  | .hbm, ⟨6, _⟩ => ⟨S54, .f32⟩
  | .hbm, ⟨7, _⟩ => ⟨S1600000, .f32⟩
  | .hbm, ⟨8, _⟩ => ⟨S_, .f32⟩
  | .hbm, ⟨9, _⟩ => ⟨S1600000, .f32⟩
  | .hbm, ⟨10, _⟩ => ⟨S1600000, .f32⟩
  | .hbm, ⟨11, _⟩ => ⟨S1600000, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1x10, .i32⟩
  | .hbm, ⟨22, _⟩ => ⟨S1600000x10, .i32⟩
  | .hbm, ⟨23, _⟩ => ⟨S1600000x10, .i32⟩
  | .hbm, ⟨24, _⟩ => ⟨S1600000x10, .i1⟩
  | .hbm, ⟨25, _⟩ => ⟨S1600000x10, .f32⟩
  | .hbm, ⟨26, _⟩ => ⟨S1600000x128, .f32⟩
  | .hbm, ⟨27, _⟩ => ⟨S1x128, .f32⟩
  | .hbm, ⟨28, _⟩ => ⟨S1600000x128, .f32⟩
  | .hbm, ⟨29, _⟩ => ⟨S1600000x128, .f32⟩
  | .hbm, ⟨30, _⟩ => ⟨S_, .f32⟩
  | .hbm, ⟨31, _⟩ => ⟨S1600000x128, .f32⟩
  | .hbm, ⟨32, _⟩ => ⟨S1600000x128, .f32⟩
  | .hbm, ⟨33, _⟩ => ⟨S1600000x54, .f32⟩
  | .hbm, ⟨34, _⟩ => ⟨S1x54, .f32⟩
  | .hbm, ⟨35, _⟩ => ⟨S1600000x54, .f32⟩
  | .hbm, ⟨36, _⟩ => ⟨S1600000x54, .f32⟩
  | .hbm, ⟨37, _⟩ => ⟨S_, .f32⟩
  | .hbm, ⟨38, _⟩ => ⟨S1600000x54, .f32⟩
  | .hbm, ⟨39, _⟩ => ⟨S1600000x54, .f32⟩
  | .hbm, ⟨40, _⟩ => ⟨S1600000x64, .f32⟩
  | .hbm, ⟨41, _⟩ => ⟨S1x1600000, .i32⟩
  | .hbm, ⟨42, _⟩ => ⟨S1600000, .i32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S_, .f32⟩
  | .hbm, ⟨57, _⟩ => ⟨S1600000x64, .f32⟩
  | .hbm, ⟨58, _⟩ => ⟨S1600000x64, .i1⟩
  | .hbm, ⟨59, _⟩ => ⟨S_, .f32⟩
  | .hbm, ⟨60, _⟩ => ⟨S_, .f32⟩
  | .hbm, ⟨61, _⟩ => ⟨S1600000x64, .f32⟩
  | .hbm, ⟨62, _⟩ => ⟨S1600000x64, .f32⟩
  | .hbm, ⟨63, _⟩ => ⟨S1600000x64, .f32⟩
  | .hbm, ⟨64, _⟩ => ⟨S_, .f32⟩
  | .hbm, ⟨65, _⟩ => ⟨S_, .f32⟩
  | .hbm, ⟨66, _⟩ => ⟨S1600000x64, .f32⟩
  | .hbm, ⟨67, _⟩ => ⟨S1600000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v4 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call2_cst : Ref sig .tc := ⟨.hbm, 30, rfl⟩
abbrev main_call2_v0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_call3_cst : Ref sig .tc := ⟨.hbm, 37, rfl⟩
abbrev main_call3_v0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_2 : Ref sig .tc := ⟨.hbm, 47, rfl⟩
abbrev main_v22 : Ref sig .tc := ⟨.hbm, 48, rfl⟩
abbrev main_v23 : Ref sig .tc := ⟨.hbm, 49, rfl⟩
abbrev main_c_3 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_4 : Ref sig .tc := ⟨.hbm, 56, rfl⟩
abbrev main_v29 : Ref sig .tc := ⟨.hbm, 57, rfl⟩
abbrev main_v30 : Ref sig .tc := ⟨.hbm, 58, rfl⟩
abbrev main_cst_5 : Ref sig .tc := ⟨.hbm, 59, rfl⟩
abbrev main_call4_v0 : Ref sig .tc := ⟨.hbm, 60, rfl⟩
abbrev main_call4_v1 : Ref sig .tc := ⟨.hbm, 61, rfl⟩
abbrev main_v31 : Ref sig .tc := ⟨.hbm, 62, rfl⟩
abbrev main_v32 : Ref sig .tc := ⟨.hbm, 63, rfl⟩
abbrev main_cst_6 : Ref sig .tc := ⟨.hbm, 64, rfl⟩
abbrev main_call5_v0 : Ref sig .tc := ⟨.hbm, 65, rfl⟩
abbrev main_call5_v1 : Ref sig .tc := ⟨.hbm, 66, rfl⟩
abbrev main_v33 : Ref sig .tc := ⟨.hbm, 67, rfl⟩

abbrev nD : Nat := 1
abbrev τ : Topo := Topo.v7x

variable {F : FTy → Type} [FloatOps F]

class Facts₀ : Prop where
  shapeCasts_S1600000x1_S1600000 : S1600000x1.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x10_0_1 : S1600000x1.BroadcastsInDim S1600000x10 (![0, 1] : Fin 2 → Fin S1600000x10.rank)
  bcast_S1x10_S1600000x10_0_1 : S1x10.BroadcastsInDim S1600000x10 (![0, 1] : Fin 2 → Fin S1600000x10.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S54_S1x54_1 : S54.BroadcastsInDim S1x54 (![1] : Fin 1 → Fin S1x54.rank)
  bcast_S1x54_S1600000x54_0_1 : S1x54.BroadcastsInDim S1600000x54 (![0, 1] : Fin 2 → Fin S1600000x54.rank)
  bcast_S_S1600000x54 : S_.BroadcastsInDim S1600000x54 (![] : Fin 0 → Fin S1600000x54.rank)
  concatenates_S1600000x10_S1600000x54_S1600000x64_d1 : Shape.Concatenates [S1600000x10, S1600000x54] S1600000x64 1
  slices_S2x1600000_S1x1600000_0_0 : S2x1600000.Slices ![0, 0] S1x1600000
  shapeCasts_S1x1600000_S1600000 : S1x1600000.ShapeCasts S1600000
  bcast_S_S100000x64 : S_.BroadcastsInDim S100000x64 (![] : Fin 0 → Fin S100000x64.rank)
  bcast_S_S1600000x64 : S_.BroadcastsInDim S1600000x64 (![] : Fin 0 → Fin S1600000x64.rank)
  dot_S1600000x1_S1x128_S1600000x128_1_0_0_1_n_n_wf : DotDims.WF S1600000x1 S1x128 S1600000x128 [1] [0] [0] [1] [] []
  dot_S1600000x128_S128x54_S1600000x54_1_0_0_1_n_n_wf : DotDims.WF S1600000x128 S128x54 S1600000x54 [1] [0] [0] [1] [] []
  scatter_S100000x64_S1600000x1_S1600000x64_1_0_0_1_wf : ScatterDims.WF S100000x64 S1600000x1 S1600000x64 [1] [0] [0] 1
  gather_S100000x64_S1600000x1_S1600000x64_1_0_n_n_0_1_164_wf : GatherDims.WF S100000x64 S1600000x1 S1600000x64 [1] [0] [] [0] [] 1 ![1, 64]

variable [Facts₀]

def dot_S1600000x1_S1x128_S1600000x128_1_0_0_1_n_n : DotDims S1600000x1 S1x128 S1600000x128 where
  lhsContracting := [1]
  rhsContracting := [0]
  lhsNonContracting := [0]
  rhsNonContracting := [1]
  lhsBatch := []
  rhsBatch := []
  wf := dot_S1600000x1_S1x128_S1600000x128_1_0_0_1_n_n_wf
def dot_S1600000x128_S128x54_S1600000x54_1_0_0_1_n_n : DotDims S1600000x128 S128x54 S1600000x54 where
  lhsContracting := [1]
  rhsContracting := [0]
  lhsNonContracting := [0]
  rhsNonContracting := [1]
  lhsBatch := []
  rhsBatch := []
  wf := dot_S1600000x128_S128x54_S1600000x54_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf

class Facts : Prop extends Facts₀ where

variable [Facts]
-- ==== Proof.KernelRun.lean ====
/-
  THE IDEALIZED KERNEL'S RUN WITH ITS RESULT NAMED.

  The program is two kernel regions with a stretch of host operations between them.  Its generated frame follows the
  buffer contents through those three segments (the valuations W0 … W3 of the frame module: at launch, after the first
  region, after the host stretch, after the second region) and ends knowing EVERY unscoped buffer at W3, but states only
  that the arguments are unchanged.  Here the same run is stated once more with the result buffer read as well: every
  weakly fair execution terminates, nothing faults, the result array holds W3 at its reference and the arguments are as
  launched.  What W3 holds there is computed in the value modules.
-/
import proofs.«162413_j5497558139184_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its three segments, the last thread state read against the final memory: the result
    array holds the last boundary's contents at its reference, and each argument is as launched. -/
theorem run_result : θ_run defs (onTc (τ := τ) (main (F := F))) ⟨m, fun _ => 0, ρ⟩ (fun r => ∀ c : Dev nD,
      r.2.mem ((c.tc : Thread nD τ).loc main_v13) = W3 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v13 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.RunValue

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibReluLayer.lean ====
/-
  ONE DENSE LAYER WITH A RECTIFIER, AS A FUNCTION OF ITS INDEX, generic in the three extents.

  For a row operand x of shape [A, K], a matrix w of shape [K, B] and a bias row b of shape [1, B], the layer
      layer x w b (r, c) = max ((sum over k of x (r, k) · w (k, c)) + b (0, c)) 0
  is what, at the ideal values (every float operation exact, rounding between formats the identity),

  * a kernel computes by a matmul of the operands (rounded to bf16) into the zero accumulator, an addition of the
    bias row broadcast to every row, and a maximum with the zero splat              (`kernel_eq`);
  * the host computes by a dot_general, an addition of the bias row broadcast in dimensions [0, 1] and a maximum
    with the rank-0 zero broadcast to the result's shape                            (`host_eq`).

  The layer at an index reads only one row of x, one column of w and one entry of b (`layer_congr`), so a block of
  rows of the layer's result is the layer of the same block of rows of x.

  Nothing here depends on a program.
-/
import Idealize.ShloMosaic.Lib.ValueIdx
import Idealize.ShloMosaic.Lib.Pipeline.Value
import Idealize.ShloMosaic.PureOps.Ideal.Laws
import proofs.«162413_j5497558139184_2_alg».proof.Proof.LibPlainDot

noncomputable section

open scoped BigOperators

namespace Cert.Lib.ReluLayer

open Idealize.ShloMosaic Idealize.ShloMosaic.ValueIdx Cert.Lib.PlainDot

variable {A A' K B : Nat}

/-- The layer at the output index (r, c): the rectified sum of the products along row r of `x` and column c of `w`,
    plus the bias at column c. -/
def layer (x : (⟨2, ![A, K]⟩ : Shape).Idx → EReal) (w : (⟨2, ![K, B]⟩ : Shape).Idx → EReal)
    (b : (⟨2, ![1, B]⟩ : Shape).Idx → EReal) : (⟨2, ![A, B]⟩ : Shape).Idx → EReal :=
  fun j => max ((∑ k : Fin K, x (ix2 (j 0) k) * w (ix2 k (j 1))) + b (ix2 0 (j 1))) 0

/-- The layer at an index depends on one row of the row operand, one column of the matrix and one entry of the bias:
    two layers (over row operands of different heights) agree at two indices where those agree. -/
theorem layer_congr (x : (⟨2, ![A, K]⟩ : Shape).Idx → EReal) (x' : (⟨2, ![A', K]⟩ : Shape).Idx → EReal)
    (w w' : (⟨2, ![K, B]⟩ : Shape).Idx → EReal) (b b' : (⟨2, ![1, B]⟩ : Shape).Idx → EReal)
    (j : (⟨2, ![A, B]⟩ : Shape).Idx) (i : (⟨2, ![A', B]⟩ : Shape).Idx)
    (hx : ∀ k, x (ix2 (j 0) k) = x' (ix2 (i 0) k)) (hw : ∀ k, w (ix2 k (j 1)) = w' (ix2 k (i 1)))
    (hb : b (ix2 0 (j 1)) = b' (ix2 0 (i 1))) : layer x w b j = layer x' w' b' i := by
  unfold layer
  rw [hb]
  refine congrArg (fun s => max (s + b' (ix2 0 (i 1))) 0) (Finset.sum_congr rfl fun k _ => ?_)
  rw [hx k, hw k]

/-- The kernel's spelling: matmul of the operands rounded to bf16 into the zero accumulator, plus the bias row
    broadcast to every row, maximum with the zero splat. -/
theorem kernel_eq (hB : B ≠ 1) (x : FVec Ideal ⟨2, ![A, K]⟩ .f32) (w : FVec Ideal ⟨2, ![K, B]⟩ .f32)
    (b : FVec Ideal ⟨2, ![1, B]⟩ .f32) (h1 : FTy.bf16.bits < FTy.f32.bits) (h2 : FTy.bf16.bits < FTy.f32.bits)
    (hbc : (⟨2, ![1, B]⟩ : Shape).Broadcasts ⟨2, ![A, B]⟩) :
    maximumf (addf (matmul (DotDims.plain A K B) none (truncf .bf16 x h1) (truncf .bf16 w h2)
          (constant ⟨2, ![A, B]⟩ .f32 0x00000000#32)) (broadcastTo ⟨2, ![A, B]⟩ b hbc))
        (broadcast ⟨2, ![A, B]⟩ (Scalar.ofBits (F := Ideal) .f32 0x00000000#32))
      = layer x w b := by
  funext j
  rw [maximumf_apply, addf_apply, matmul_zero_plain_apply, broadcast_apply]
  rw [broadcastTo_apply b hbc j (ix2 0 (j 1)) (fun a => by
    match a with
    | ⟨0, _⟩ => show (0 : Nat) = if (1 : Nat) = 1 then 0 else _; rw [if_pos rfl]
    | ⟨1, _⟩ => show (j 1).val = if B = 1 then 0 else (j 1).val; rw [if_neg hB])]
  show max _ (Ideal.ofBits .f32 0x00000000#32) = _
  rw [Ideal.ofBits_zero_f32]
  rfl

/-- The host's spelling: dot_general of the operands, plus the bias row broadcast in dimensions [0, 1], maximum with
    the rank-0 zero broadcast to the result's shape. -/
theorem host_eq (hB : B ≠ 1) (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    maximumf (addf (Host.dotGeneral (DotDims.plain A K B) none x w) (broadcastInDim ⟨2, ![A, B]⟩ ![0, 1] hb b))
        (broadcastInDim ⟨2, ![A, B]⟩ ![] h0 (constant (F := Ideal) ⟨0, ![]⟩ .f32 0x00000000#32))
      = layer x w b := by
  funext j
  rw [maximumf_apply, addf_apply, dotGeneral_plain_apply]
  rw [broadcastInDim_apply ![0, 1] hb b j (ix2 0 (j 1)) (fun a => by
    match a with
    | ⟨0, _⟩ => show (0 : Nat) = if (1 : Nat) = 1 then 0 else _; rw [if_pos rfl]
    | ⟨1, _⟩ => show (j 1).val = if B = 1 then 0 else (j 1).val; rw [if_neg hB])]
  rw [broadcastInDim_apply ![] h0 _ j ix0 (fun a => a.elim0), constant_apply, Ideal.ofBits_zero_f32]
  rfl

end Cert.Lib.ReluLayer

end
-- ==== Proof.LibKeepdims.lean ====
/-
  Two layout operations read at an index, in the keepdims column forms: a vector of length a seen as an [a, 1]
  column, and an [a, 1] column spread over the b columns of an [a, b] array.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array cast to an `[a, 1]` column reads, at `(i, u)`, the operand at `i`, whatever the unit coordinate `u`:
    the two indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibEdgeFeat.lean ====
/-
  THE FEATURES OF AN EDGE FROM ITS LENGTH, generic in the number of edges.

  An edge of length d gets 64 features.  The first ten are the indicator of its bucket: d is truncated toward zero to a
  signed word, the word is clamped to [0, 9], and feature k (k < 10) is 1 when the clamped word is k and 0 otherwise.
  The other 54 come from two rectified dense layers applied to the length alone:
      h (c)     = max (d · w1 (0, c) + b1 (c)) 0                       (128 hidden values; a product with ONE term),
      feature (10 + c) = max ((sum over k of h (k) · w2 (k, c)) + b2 (c)) 0.
  `feat` is that function of the column of lengths [A, 1] and of the weights, at an index (edge, feature) of [A, 64].
  Row e of `feat` reads only the length of edge e (`feat_congr`), so a block of rows of `feat` is `feat` of the block
  of lengths.

  Two programs' spellings of it, at the ideal values (every float operation exact, a change of format the identity):

  * `kernel_eq` — a kernel's: the length times the splat 1 converted to a word, clamped by a signed max and min with
    splats, compared with an iota along the features, the bit widened and converted; the first layer as a product of
    two broadcasts plus a broadcast bias row; the second as a matmul of the operands rounded to bf16 into a zero
    accumulator; the two blocks joined along the features.
  * `host_eq` — the host's: the length divided by the constant 1, the same clamp with rank-0 constants broadcast,
    compared with an iota row broadcast down, the bit converted; both layers as dot_general (the first contracting an
    axis of extent one), the bias vectors broadcast as rows; the two blocks concatenated.

  x · 1 = x and x / 1 = x hold for every extended real, so nothing here needs a finite input.
  Nothing here depends on a program.
-/
import Idealize.ShloMosaic.Lib.ValueIdx
import Idealize.ShloMosaic.Lib.Pipeline.Value
import Idealize.ShloMosaic.Lib.KernelVsHost
import Idealize.ShloMosaic.Lib.IdealHost
import Idealize.ShloMosaic.PureOps.Ideal.Laws
import proofs.«162413_j5497558139184_2_alg».proof.Proof.LibReluLayer
import proofs.«162413_j5497558139184_2_alg».proof.Proof.LibKeepdims

noncomputable section

open scoped BigOperators

namespace Cert.Lib.EdgeFeat

open Idealize.ShloMosaic Idealize.ShloMosaic.ValueIdx Cert.Lib.PlainDot Cert.Lib.ReluLayer

variable {A A' : Nat}

/-! ## The function -/

/-- The bucket of a length: its integer part toward zero as a signed 32-bit word (an infinity to the word's end),
    clamped to [0, 9]. -/
def bucket (d : EReal) : BitVec 32 := IntOp.minsi 9#32 (IntOp.maxsi 0#32 (Ideal.fptosi 32 d))

/-- Feature k of the bucket indicator: 1 when the bucket is k, 0 otherwise. -/
def hot (d : EReal) (k : Nat) : EReal :=
  FloatOps.uitofp (F := Ideal) .f32 (IntOp.cmpi .eq (bucket d) (BitVec.ofNat 32 k))

/-- A vector of n entries as the one row of a [1, n] array. -/
def rowOf {α : Type} {n : Nat} (v : (⟨1, ![n]⟩ : Shape).Idx → α) : (⟨2, ![1, n]⟩ : Shape).Idx → α :=
  fun j => v (ix1 (j 1))

/-- Feature c of edge r: the bucket indicator in columns 0–9, the two-layer perceptron of the length in columns 10–63. -/
def featAt (d : (⟨2, ![A, 1]⟩ : Shape).Idx → EReal) (w1 b1 : (⟨2, ![1, 128]⟩ : Shape).Idx → EReal)
    (w2 : (⟨2, ![128, 54]⟩ : Shape).Idx → EReal) (b2 : (⟨2, ![1, 54]⟩ : Shape).Idx → EReal) (r : Fin A) (c : Fin 64) : EReal :=
  if h : c.val < 10 then hot (d (ix2 r (0 : Fin 1))) c.val
  else layer (layer d w1 b1) w2 b2 (ix2 r (⟨c.val - 10, by omega⟩ : Fin 54))

/-- The 64 features of every edge, as an array [A, 64]. -/
def feat (d : (⟨2, ![A, 1]⟩ : Shape).Idx → EReal) (w1 b1 : (⟨2, ![1, 128]⟩ : Shape).Idx → EReal)
    (w2 : (⟨2, ![128, 54]⟩ : Shape).Idx → EReal) (b2 : (⟨2, ![1, 54]⟩ : Shape).Idx → EReal) :
    (⟨2, ![A, 64]⟩ : Shape).Idx → EReal :=
  fun j => featAt d w1 b1 w2 b2 (j 0) (j 1)

/-- Row r of the features reads the length of edge r only: two columns of lengths (of different heights) that agree at
    two rows give the same features there. -/
theorem feat_congr (d : (⟨2, ![A, 1]⟩ : Shape).Idx → EReal) (d' : (⟨2, ![A', 1]⟩ : Shape).Idx → EReal)
    (w1 b1 : (⟨2, ![1, 128]⟩ : Shape).Idx → EReal) (w2 : (⟨2, ![128, 54]⟩ : Shape).Idx → EReal)
    (b2 : (⟨2, ![1, 54]⟩ : Shape).Idx → EReal) (r : Fin A) (r' : Fin A') (c : Fin 64)
    (h : d (ix2 r (0 : Fin 1)) = d' (ix2 r' (0 : Fin 1))) :
    feat d w1 b1 w2 b2 (ix2 r c) = feat d' w1 b1 w2 b2 (ix2 r' c) := by
  show featAt d w1 b1 w2 b2 r c = featAt d' w1 b1 w2 b2 r' c
  unfold featAt
  by_cases hc : c.val < 10
  · rw [dif_pos hc, dif_pos hc, h]
  · rw [dif_neg hc, dif_neg hc]
    refine layer_congr _ _ w2 w2 b2 b2 _ _ (fun k => ?_) (fun _ => rfl) rfl
    refine layer_congr d d' w1 w1 b1 b1 _ _ (fun q => ?_) (fun _ => rfl) rfl
    have hq : q = 0 := Subsingleton.elim _ _
    subst hq
    exact h

/-! ## Small facts on the extended reals and on layouts -/

/-- Division by one is the identity on every extended real. -/
theorem div_one (x : EReal) : Ideal.div x 1 = x := by
  have h := Ideal.div_coe (y := 1) one_ne_zero x
  simpa using h

/-- A vector recast as a one-row array is its row. -/
theorem shapeCast_row {α : Type} {n : Nat} (v : (⟨1, ![n]⟩ : Shape).Idx → α)
    (h : (⟨1, ![n]⟩ : Shape).ShapeCasts ⟨2, ![1, n]⟩) : shapeCast ⟨2, ![1, n]⟩ v h = rowOf v := by
  funext j
  obtain ⟨u, c, rfl⟩ : ∃ (u : Fin 1) (c : Fin n), j = ix2 u c := ⟨j 0, j 1, eq_ix2 j⟩
  refine shapeCast_apply v h (ix2 u c) (ix1 c) ?_
  have hu : u.val = 0 := by omega
  rw [Shape.rowMajor_val_two, Shape.rowMajor_val_one]
  show c.val = u.val * n + c.val
  rw [hu]; omega

/-- A vector broadcast along axis 1 of a one-row array is its row. -/
theorem broadcastInDim_row {α : Type} {n : Nat} (hn : n ≠ 1) (v : (⟨1, ![n]⟩ : Shape).Idx → α)
    (h : (⟨1, ![n]⟩ : Shape).BroadcastsInDim ⟨2, ![1, n]⟩ ![1]) : broadcastInDim ⟨2, ![1, n]⟩ ![1] h v = rowOf v := by
  funext j
  obtain ⟨u, c, rfl⟩ : ∃ (u : Fin 1) (c : Fin n), j = ix2 u c := ⟨j 0, j 1, eq_ix2 j⟩
  refine broadcastInDim_apply ![1] h v (ix2 u c) (ix1 c) fun a => ?_
  match a with
  | ⟨0, _⟩ => show c.val = if n = 1 then 0 else c.val; rw [if_neg hn]

/-- Two blocks [A, 10] and [A, 54] joined along axis 1, read at (r, c): the first block while c < 10, else the second
    at column c − 10. -/
theorem cat_apply {α : Type} (a : (⟨2, ![A, 10]⟩ : Shape).Idx → α) (b : (⟨2, ![A, 54]⟩ : Shape).Idx → α)
    (h : Shape.Concatenates [(⟨2, ![A, 10]⟩ : Shape), ⟨2, ![A, 54]⟩] ⟨2, ![A, 64]⟩ 1) (r : Fin A) (c : Fin 64) :
    concatenate ⟨2, ![A, 64]⟩ 1 [⟨⟨2, ![A, 10]⟩, a⟩, ⟨⟨2, ![A, 54]⟩, b⟩] h (ix2 r c)
      = if hc : c.val < 10 then a (ix2 r (⟨c.val, hc⟩ : Fin 10)) else b (ix2 r (⟨c.val - 10, by omega⟩ : Fin 54)) := by
  by_cases hc : c.val < 10
  · rw [dif_pos hc]
    refine concatenate_pair_apply_left (t := ⟨2, ![A, 64]⟩) (s₁ := ⟨2, ![A, 10]⟩) (s₂ := ⟨2, ![A, 54]⟩) (1 : Fin 2) a b h
      (ix2 r c) rfl (ix2 r (⟨c.val, hc⟩ : Fin 10)) fun q => ?_
    match q with
    | ⟨0, _⟩ => rfl
    | ⟨1, _⟩ => rfl
  · rw [dif_neg hc]
    refine concatenate_pair_apply_right (t := ⟨2, ![A, 64]⟩) (s₁ := ⟨2, ![A, 10]⟩) (s₂ := ⟨2, ![A, 54]⟩) (1 : Fin 2) a b h
      (ix2 r c) rfl rfl (ix2 r (⟨c.val - 10, by omega⟩ : Fin 54)) (fun q hq => ?_) ?_
    · match q with
      | ⟨0, _⟩ => rfl
      | ⟨1, _⟩ => exact absurd rfl hq
    · show c.val - 10 + 10 = c.val
      omega

/-! ## The first layer: a contraction over an axis of extent one is a product -/

/-- The kernel's first layer, a product of two broadcasts plus the broadcast bias row, rectified, is the dense layer
    whose contraction has one term. -/
theorem affine_kernel_eq {H : Nat} (x : FVec Ideal ⟨2, ![A, 1]⟩ .f32) (w b : FVec Ideal ⟨2, ![1, H]⟩ .f32)
    (hH : H ≠ 1) (hx : (⟨2, ![A, 1]⟩ : Shape).Broadcasts ⟨2, ![A, H]⟩) (hw : (⟨2, ![1, H]⟩ : Shape).Broadcasts ⟨2, ![A, H]⟩) :
    maximumf (addf (mulf (broadcastTo ⟨2, ![A, H]⟩ x hx) (broadcastTo ⟨2, ![A, H]⟩ w hw)) (broadcastTo ⟨2, ![A, H]⟩ b hw))
        (broadcast ⟨2, ![A, H]⟩ (Scalar.ofBits (F := Ideal) .f32 0x00000000#32))
      = layer x w b := by
  funext j
  obtain ⟨r, c, rfl⟩ : ∃ (r : Fin A) (c : Fin H), j = ix2 r c := ⟨j 0, j 1, eq_ix2 j⟩
  have hrow : ∀ y : FVec Ideal ⟨2, ![1, H]⟩ .f32, broadcastTo ⟨2, ![A, H]⟩ y hw (ix2 r c) = y (ix2 (0 : Fin 1) c) := fun y =>
    broadcastTo_apply y hw (ix2 r c) (ix2 (0 : Fin 1) c) (fun a => by
      match a with
      | ⟨0, _⟩ => show (0 : Nat) = if (1 : Nat) = 1 then 0 else _; rw [if_pos rfl]
      | ⟨1, _⟩ => show c.val = if H = 1 then 0 else c.val; rw [if_neg hH])
  rw [maximumf_apply, addf_apply, mulf_apply, broadcast_apply, Cert.LibKeepdims.broadcastTo_a1_ab_apply x hx r c, hrow w, hrow b]
  show max (x (ix2 r (0 : Fin 1)) * w (ix2 (0 : Fin 1) c) + b (ix2 (0 : Fin 1) c)) (Ideal.ofBits .f32 0x00000000#32)
    = max ((∑ k : Fin 1, x (ix2 r k) * w (ix2 k c)) + b (ix2 (0 : Fin 1) c)) 0
  rw [Ideal.ofBits_zero_f32, Fin.sum_univ_one]

/-! ## The bucket indicator, two spellings -/

/-- The kernel's bucket indicator at an index. -/
theorem hot_kernel_eq (x0 : FVec Ideal ⟨2, ![A, 1]⟩ .f32) (h1 : (⟨2, ![A, 1]⟩ : Shape).ShapeCasts ⟨1, ![A]⟩)
    (hio : (⟨2, ![A, 10]⟩ : Shape).Iotas .tc 32 [1]) (h2 : (⟨1, ![A]⟩ : Shape).ShapeCasts ⟨2, ![A, 1]⟩)
    (h3 : (⟨2, ![A, 1]⟩ : Shape).Broadcasts ⟨2, ![A, 10]⟩) (h4 : 1 < 32) (r : Fin A) (c : Fin 10) :
    (sitofp .f32 (extui 32 (cmpi .eq (broadcastTo ⟨2, ![A, 10]⟩ (shapeCast ⟨2, ![A, 1]⟩
        (minsi (broadcast ⟨1, ![A]⟩ 9#32) (maxsi (broadcast ⟨1, ![A]⟩ 0#32) (fptosi 32
          (mulf (shapeCast ⟨1, ![A]⟩ x0 h1) (broadcast ⟨1, ![A]⟩ (Scalar.ofBits (F := Ideal) .f32 0x3F800000#32)))))) h2) h3)
        (iota .tc ⟨2, ![A, 10]⟩ 32 [1] hio)) h4) : FVec Ideal ⟨2, ![A, 10]⟩ .f32) (ix2 r c)
      = hot (x0 (ix2 r (0 : Fin 1))) c.val := by
  rw [sitofp_extui_eq_uitofp]
  show FloatOps.uitofp .f32 (IntOp.cmpi .eq (broadcastTo ⟨2, ![A, 10]⟩ _ h3 (ix2 r c)) (iota .tc ⟨2, ![A, 10]⟩ 32 [1] hio (ix2 r c))) = _
  rw [Cert.LibKeepdims.broadcastTo_a1_ab_apply _ h3 r c, Cert.LibKeepdims.shapeCast_a_a1_apply _ h2 r 0, iota_single_apply]
  show FloatOps.uitofp .f32 (IntOp.cmpi .eq (IntOp.minsi 9#32 (IntOp.maxsi 0#32 (Ideal.fptosi 32
    (shapeCast ⟨1, ![A]⟩ x0 h1 (ix1 r) * Ideal.ofBits .f32 0x3F800000#32)))) (BitVec.ofNat 32 c.val)) = _
  rw [shapeCast_apply x0 h1 (ix1 r) (ix2 r (0 : Fin 1)) (by
    rw [Shape.rowMajor_val_two, Shape.rowMajor_val_one]; show r.val * 1 + 0 = r.val; omega), Ideal.ofBits_one_f32, mul_one]
  rfl

/-- The host's bucket indicator at an index. -/
theorem hot_host_eq (x2 : FVec Ideal ⟨2, ![A, 1]⟩ .f32)
    (g1 : (⟨2, ![A, 1]⟩ : Shape).BroadcastsInDim ⟨2, ![A, 10]⟩ ![0, 1])
    (g2 : (⟨1, ![A]⟩ : Shape).BroadcastsInDim ⟨2, ![A, 1]⟩ ![0])
    (g3 : (⟨0, ![]⟩ : Shape).BroadcastsInDim ⟨1, ![A]⟩ ![])
    (g4 : (⟨2, ![A, 1]⟩ : Shape).ShapeCasts ⟨1, ![A]⟩)
    (g5 : (⟨2, ![1, 10]⟩ : Shape).BroadcastsInDim ⟨2, ![A, 10]⟩ ![0, 1]) (r : Fin A) (c : Fin 10) :
    (uitofp .f32 (cmpi .eq (broadcastInDim ⟨2, ![A, 10]⟩ ![0, 1] g1 (broadcastInDim ⟨2, ![A, 1]⟩ ![0] g2
        (minsi (broadcastInDim ⟨1, ![A]⟩ ![] g3 (id (constantI ⟨0, ![]⟩ 32 9#32)))
          (maxsi (broadcastInDim ⟨1, ![A]⟩ ![] g3 (id (constantI ⟨0, ![]⟩ 32 0#32)))
            (fptosi 32 (Host.divf (shapeCast ⟨1, ![A]⟩ x2 g4)
              (broadcastInDim ⟨1, ![A]⟩ ![] g3 (constant (F := Ideal) ⟨0, ![]⟩ .f32 0x3F800000#32))))))))
        (broadcastInDim ⟨2, ![A, 10]⟩ ![0, 1] g5 (iotaInDim ⟨2, ![1, 10]⟩ 32 1))) : FVec Ideal ⟨2, ![A, 10]⟩ .f32) (ix2 r c)
      = hot (x2 (ix2 r (0 : Fin 1))) c.val := by
  show FloatOps.uitofp .f32 (IntOp.cmpi .eq (broadcastInDim (s := ⟨2, ![A, 1]⟩) ⟨2, ![A, 10]⟩ ![0, 1] g1 _ (ix2 r c))
    (broadcastInDim (s := ⟨2, ![1, 10]⟩) ⟨2, ![A, 10]⟩ ![0, 1] g5 (iotaInDim ⟨2, ![1, 10]⟩ 32 1) (ix2 r c))) = _
  rw [broadcastInDim_apply ![0, 1] g1 _ (ix2 r c) (ix2 r (0 : Fin 1)) (fun a => by
      match a with
      | ⟨0, _⟩ =>
        show r.val = if A = 1 then 0 else r.val
        split
        · have := r.isLt; omega
        · rfl
      | ⟨1, _⟩ => rfl),
    broadcastInDim_apply ![0] g2 _ (ix2 r (0 : Fin 1)) (ix1 r) (fun a => by
      match a with
      | ⟨0, _⟩ =>
        show r.val = if A = 1 then 0 else r.val
        split
        · have := r.isLt; omega
        · rfl),
    broadcastInDim_oneRow_apply g5 _ r c]
  show FloatOps.uitofp .f32 (IntOp.cmpi .eq (IntOp.minsi 9#32 (IntOp.maxsi 0#32 (Ideal.fptosi 32
    (Ideal.div (shapeCast ⟨1, ![A]⟩ x2 g4 (ix1 r)) (Ideal.ofBits .f32 0x3F800000#32))))) (BitVec.ofNat 32 c.val)) = _
  rw [shapeCast_apply x2 g4 (ix1 r) (ix2 r (0 : Fin 1)) (by
    rw [Shape.rowMajor_val_two, Shape.rowMajor_val_one]; show r.val * 1 + 0 = r.val; omega), Ideal.ofBits_one_f32, div_one]
  rfl

/-! ## The whole feature array, two spellings -/

/-- The kernel's spelling is `feat`. -/
theorem kernel_eq (x0 : FVec Ideal ⟨2, ![A, 1]⟩ .f32) (x1 : FVec Ideal ⟨2, ![1, 128]⟩ .f32) (x2 : FVec Ideal ⟨1, ![128]⟩ .f32)
    (x3 : FVec Ideal ⟨2, ![128, 54]⟩ .f32) (x4 : FVec Ideal ⟨1, ![54]⟩ .f32)
    (h1 : (⟨2, ![A, 1]⟩ : Shape).ShapeCasts ⟨1, ![A]⟩) (hio : (⟨2, ![A, 10]⟩ : Shape).Iotas .tc 32 [1])
    (h2 : (⟨1, ![A]⟩ : Shape).ShapeCasts ⟨2, ![A, 1]⟩) (h3 : (⟨2, ![A, 1]⟩ : Shape).Broadcasts ⟨2, ![A, 10]⟩) (h4 : 1 < 32)
    (h5 : (⟨2, ![A, 1]⟩ : Shape).Broadcasts ⟨2, ![A, 128]⟩) (h6 : (⟨2, ![1, 128]⟩ : Shape).Broadcasts ⟨2, ![A, 128]⟩)
    (h7 : (⟨1, ![128]⟩ : Shape).ShapeCasts ⟨2, ![1, 128]⟩) (h8 : FTy.bf16.bits < FTy.f32.bits)
    (dd : DotDims ⟨2, ![A, 128]⟩ ⟨2, ![128, 54]⟩ ⟨2, ![A, 54]⟩)
    (e1 : dd.lhsContracting = [1]) (e2 : dd.rhsContracting = [0]) (e3 : dd.lhsNonContracting = [0])
    (e4 : dd.rhsNonContracting = [1]) (e5 : dd.lhsBatch = []) (e6 : dd.rhsBatch = [])
    (h9 : (⟨1, ![54]⟩ : Shape).ShapeCasts ⟨2, ![1, 54]⟩) (h10 : (⟨2, ![1, 54]⟩ : Shape).Broadcasts ⟨2, ![A, 54]⟩)
    (h11 : Shape.Concatenates [(⟨2, ![A, 10]⟩ : Shape), ⟨2, ![A, 54]⟩] ⟨2, ![A, 64]⟩ 1) :
    concatenate ⟨2, ![A, 64]⟩ 1
      [⟨⟨2, ![A, 10]⟩, (sitofp .f32 (extui 32 (cmpi .eq (broadcastTo ⟨2, ![A, 10]⟩ (shapeCast ⟨2, ![A, 1]⟩
          (minsi (broadcast ⟨1, ![A]⟩ 9#32) (maxsi (broadcast ⟨1, ![A]⟩ 0#32) (fptosi 32
            (mulf (shapeCast ⟨1, ![A]⟩ x0 h1) (broadcast ⟨1, ![A]⟩ (Scalar.ofBits (F := Ideal) .f32 0x3F800000#32)))))) h2) h3)
          (iota .tc ⟨2, ![A, 10]⟩ 32 [1] hio)) h4) : FVec Ideal ⟨2, ![A, 10]⟩ .f32)⟩,
       ⟨⟨2, ![A, 54]⟩, maximumf (addf (matmul dd none
          (truncf .bf16 (maximumf (addf (mulf (broadcastTo ⟨2, ![A, 128]⟩ x0 h5) (broadcastTo ⟨2, ![A, 128]⟩ x1 h6))
              (broadcastTo ⟨2, ![A, 128]⟩ (shapeCast ⟨2, ![1, 128]⟩ x2 h7) h6))
            (broadcast ⟨2, ![A, 128]⟩ (Scalar.ofBits (F := Ideal) .f32 0x00000000#32))) h8)
          (truncf .bf16 x3 h8) (constant ⟨2, ![A, 54]⟩ .f32 0x00000000#32))
          (broadcastTo ⟨2, ![A, 54]⟩ (shapeCast ⟨2, ![1, 54]⟩ x4 h9) h10))
        (broadcast ⟨2, ![A, 54]⟩ (Scalar.ofBits (F := Ideal) .f32 0x00000000#32))⟩] h11
      = feat x0 x1 (rowOf x2) x3 (rowOf x4) := by
  obtain rfl := eq_plain dd e1 e2 e3 e4 e5 e6
  rw [affine_kernel_eq x0 x1 _ (by decide) h5 h6, Cert.Lib.ReluLayer.kernel_eq (by decide) _ x3 _ h8 h8 h10,
    shapeCast_row x2 h7, shapeCast_row x4 h9]
  funext j
  obtain ⟨r, c, rfl⟩ : ∃ (r : Fin A) (c : Fin 64), j = ix2 r c := ⟨j 0, j 1, eq_ix2 j⟩
  rw [cat_apply]
  show _ = featAt _ _ _ _ _ r c
  unfold featAt
  by_cases hc : c.val < 10
  · rw [dif_pos hc, dif_pos hc]
    exact hot_kernel_eq x0 h1 hio h2 h3 h4 r ⟨c.val, hc⟩
  · rw [dif_neg hc, dif_neg hc]

/-- The host's spelling is `feat`. -/
theorem host_eq (x2 : FVec Ideal ⟨2, ![A, 1]⟩ .f32) (x3 : FVec Ideal ⟨2, ![1, 128]⟩ .f32) (x4 : FVec Ideal ⟨1, ![128]⟩ .f32)
    (x5 : FVec Ideal ⟨2, ![128, 54]⟩ .f32) (x6 : FVec Ideal ⟨1, ![54]⟩ .f32)
    (g1 : (⟨2, ![A, 1]⟩ : Shape).BroadcastsInDim ⟨2, ![A, 10]⟩ ![0, 1])
    (g2 : (⟨1, ![A]⟩ : Shape).BroadcastsInDim ⟨2, ![A, 1]⟩ ![0])
    (g3 : (⟨0, ![]⟩ : Shape).BroadcastsInDim ⟨1, ![A]⟩ ![])
    (g4 : (⟨2, ![A, 1]⟩ : Shape).ShapeCasts ⟨1, ![A]⟩)
    (g5 : (⟨2, ![1, 10]⟩ : Shape).BroadcastsInDim ⟨2, ![A, 10]⟩ ![0, 1])
    (d1 : DotDims ⟨2, ![A, 1]⟩ ⟨2, ![1, 128]⟩ ⟨2, ![A, 128]⟩)
    (a1 : d1.lhsContracting = [1]) (a2 : d1.rhsContracting = [0]) (a3 : d1.lhsNonContracting = [0])
    (a4 : d1.rhsNonContracting = [1]) (a5 : d1.lhsBatch = []) (a6 : d1.rhsBatch = [])
    (g6 : (⟨2, ![1, 128]⟩ : Shape).BroadcastsInDim ⟨2, ![A, 128]⟩ ![0, 1])
    (g7 : (⟨1, ![128]⟩ : Shape).BroadcastsInDim ⟨2, ![1, 128]⟩ ![1])
    (g8 : (⟨0, ![]⟩ : Shape).BroadcastsInDim ⟨2, ![A, 128]⟩ ![])
    (d2 : DotDims ⟨2, ![A, 128]⟩ ⟨2, ![128, 54]⟩ ⟨2, ![A, 54]⟩)
    (e1 : d2.lhsContracting = [1]) (e2 : d2.rhsContracting = [0]) (e3 : d2.lhsNonContracting = [0])
    (e4 : d2.rhsNonContracting = [1]) (e5 : d2.lhsBatch = []) (e6 : d2.rhsBatch = [])
    (g9 : (⟨2, ![1, 54]⟩ : Shape).BroadcastsInDim ⟨2, ![A, 54]⟩ ![0, 1])
    (g10 : (⟨1, ![54]⟩ : Shape).BroadcastsInDim ⟨2, ![1, 54]⟩ ![1])
    (g11 : (⟨0, ![]⟩ : Shape).BroadcastsInDim ⟨2, ![A, 54]⟩ ![])
    (g12 : Shape.Concatenates [(⟨2, ![A, 10]⟩ : Shape), ⟨2, ![A, 54]⟩] ⟨2, ![A, 64]⟩ 1) :
    concatenate ⟨2, ![A, 64]⟩ 1
      [⟨⟨2, ![A, 10]⟩, (uitofp .f32 (cmpi .eq (broadcastInDim ⟨2, ![A, 10]⟩ ![0, 1] g1 (broadcastInDim ⟨2, ![A, 1]⟩ ![0] g2
          (minsi (broadcastInDim ⟨1, ![A]⟩ ![] g3 (id (constantI ⟨0, ![]⟩ 32 9#32)))
            (maxsi (broadcastInDim ⟨1, ![A]⟩ ![] g3 (id (constantI ⟨0, ![]⟩ 32 0#32)))
              (fptosi 32 (Host.divf (shapeCast ⟨1, ![A]⟩ x2 g4)
                (broadcastInDim ⟨1, ![A]⟩ ![] g3 (constant (F := Ideal) ⟨0, ![]⟩ .f32 0x3F800000#32))))))))
          (broadcastInDim ⟨2, ![A, 10]⟩ ![0, 1] g5 (iotaInDim ⟨2, ![1, 10]⟩ 32 1))) : FVec Ideal ⟨2, ![A, 10]⟩ .f32)⟩,
       ⟨⟨2, ![A, 54]⟩, maximumf (addf (Host.dotGeneral d2 none
          (maximumf (addf (Host.dotGeneral d1 none x2 x3)
              (broadcastInDim ⟨2, ![A, 128]⟩ ![0, 1] g6 (broadcastInDim ⟨2, ![1, 128]⟩ ![1] g7 x4)))
            (broadcastInDim ⟨2, ![A, 128]⟩ ![] g8 (constant (F := Ideal) ⟨0, ![]⟩ .f32 0x00000000#32))) x5)
          (broadcastInDim ⟨2, ![A, 54]⟩ ![0, 1] g9 (broadcastInDim ⟨2, ![1, 54]⟩ ![1] g10 x6)))
        (broadcastInDim ⟨2, ![A, 54]⟩ ![] g11 (constant (F := Ideal) ⟨0, ![]⟩ .f32 0x00000000#32))⟩] g12
      = feat x2 x3 (rowOf x4) x5 (rowOf x6) := by
  obtain rfl := eq_plain d1 a1 a2 a3 a4 a5 a6
  obtain rfl := eq_plain d2 e1 e2 e3 e4 e5 e6
  rw [Cert.Lib.ReluLayer.host_eq (by decide) x2 x3 _ g6 g8, Cert.Lib.ReluLayer.host_eq (by decide) _ x5 _ g9 g11,
    broadcastInDim_row (by decide) x4 g7, broadcastInDim_row (by decide) x6 g10]
  funext j
  obtain ⟨r, c, rfl⟩ : ∃ (r : Fin A) (c : Fin 64), j = ix2 r c := ⟨j 0, j 1, eq_ix2 j⟩
  rw [cat_apply]
  show _ = featAt _ _ _ _ _ r c
  unfold featAt
  by_cases hc : c.val < 10
  · rw [dif_pos hc, dif_pos hc]
    exact hot_host_eq x2 g1 g2 g3 g4 g5 r ⟨c.val, hc⟩
  · rw [dif_neg hc, dif_neg hc]

end Cert.Lib.EdgeFeat

end
-- ==== Proof.LibSafeDiv.lean ====
/-
  A QUOTIENT GUARDED AGAINST A ZERO DIVISOR, generic in the shape.

  safeDiv w d  is  w / d  where d is not zero and 0 where it is; both programs spell it with the guard applied twice,
  select (d ≠ 0) (w / select (d ≠ 0) d 1) 0, so that no division by zero is ever evaluated.  At the ideal values the
  ordered and the unordered "not equal" are the same test (an extended real is never a NaN), and the kernel's division and
  the host's are one function, so the kernel's spelling (splat constants, the ordered comparison) and the host's
  (rank-0 constants broadcast, the unordered comparison) are the same function of the two arrays, entry by entry.

  Nothing here depends on a program.
-/
import Idealize.ShloMosaic.Lib.ValueIdx
import Idealize.ShloMosaic.Lib.IdealHost
import Idealize.ShloMosaic.PureOps.Ideal.Laws

noncomputable section

namespace Cert.Lib.SafeDiv

open Idealize.ShloMosaic Idealize.ShloMosaic.ValueIdx

variable {s : Shape}

/-- w / d guarded: 0 where d = 0. The inner guard replaces a zero divisor by 1 before dividing. -/
def safeDiv (w d : EReal) : EReal :=
  Scalar.select (Ideal.cmp .une d 0) (Ideal.div w (Scalar.select (Ideal.cmp .une d 0) d 1)) 0

/-- The guarded quotient of two arrays, entry by entry. -/
def safeDivVec (w d : s.Idx → EReal) : s.Idx → EReal := fun i => safeDiv (w i) (d i)

/-- The kernel's spelling: splat constants and the ordered comparison. -/
theorem kernel_eq (w d : FVec Ideal s .f32) :
    select (cmpf .one d (broadcast s (Scalar.ofBits (F := Ideal) .f32 0x00000000#32)))
        (divf w (select (cmpf .one d (broadcast s (Scalar.ofBits (F := Ideal) .f32 0x00000000#32))) d
          (broadcast s (Scalar.ofBits (F := Ideal) .f32 0x3F800000#32))))
        (broadcast s (Scalar.ofBits (F := Ideal) .f32 0x00000000#32))
      = safeDivVec w d := by
  funext i
  show Scalar.select (Ideal.cmp .one (d i) (Ideal.ofBits .f32 0x00000000#32))
      (Ideal.div (w i) (Scalar.select (Ideal.cmp .one (d i) (Ideal.ofBits .f32 0x00000000#32)) (d i) (Ideal.ofBits .f32 0x3F800000#32)))
      (Ideal.ofBits .f32 0x00000000#32) = _
  rw [Ideal.ofBits_zero_f32, Ideal.ofBits_one_f32]
  rfl

/-- The host's spelling: rank-0 constants broadcast and the unordered comparison. -/
theorem host_eq (w d : FVec Ideal s .f32) (g : (⟨0, ![]⟩ : Shape).BroadcastsInDim s ![]) :
    select (cmpf .une d (broadcastInDim s ![] g (constant (F := Ideal) ⟨0, ![]⟩ .f32 0x00000000#32)))
        (Host.divf w (select (cmpf .une d (broadcastInDim s ![] g (constant (F := Ideal) ⟨0, ![]⟩ .f32 0x00000000#32))) d
          (broadcastInDim s ![] g (id (constant (F := Ideal) ⟨0, ![]⟩ .f32 0x3F800000#32)))))
        (broadcastInDim s ![] g (id (constant (F := Ideal) ⟨0, ![]⟩ .f32 0x00000000#32)))
      = safeDivVec w d := by
  funext i
  show Scalar.select (Ideal.cmp .une (d i) (Ideal.ofBits .f32 0x00000000#32))
      (Ideal.div (w i) (Scalar.select (Ideal.cmp .une (d i) (Ideal.ofBits .f32 0x00000000#32)) (d i) (Ideal.ofBits .f32 0x3F800000#32)))
      (Ideal.ofBits .f32 0x00000000#32) = _
  rw [Ideal.ofBits_zero_f32, Ideal.ofBits_one_f32]
  rfl

end Cert.Lib.SafeDiv

end
-- ==== Proof.KernelBlocks.lean ====
/-
  WHAT EACH KERNEL REGION LEAVES IN ITS OUTPUT ARRAY, as one function of the arrays the region finds on entry.

  Both regions run over independent tiles of the edge axis: point t of the first reads rows 8000·t … 8000·t + 7999 of the
  column of lengths (and the four weight arrays whole) and writes the same rows of the feature array; point t of the second
  reads rows 4000·t … 4000·t + 3999 of the features and of the gathered sums and writes the same rows of the result.  What a
  point writes is a function of the rows it reads, row by row, so the tiles assemble to one whole-array function:

  * first region:  the feature array is  feat  of the column of lengths and the weights (each row of  feat  reads the
    length of that edge only, so a tile of  feat  of the whole column is  feat  of the tile of the column);
  * second region: the result is the guarded quotient of the two arrays, entry by entry.

  Every row belongs to exactly one tile (row e to tile e / 8000, resp. e / 4000), so the tiles cover the array.
  Stated for ANY entry contents V of the region (the second region is entered after host operations; their fold is
  never opened here).
-/
import proofs.«162413_j5497558139184_2_alg».proof.Proof.Gen.KernelIdeal.Frame
import proofs.«162413_j5497558139184_2_alg».proof.Proof.LibEdgeFeat
import proofs.«162413_j5497558139184_2_alg».proof.Proof.LibSafeDiv
import Idealize.ShloMosaic.Lib.Pipeline.Value

set_option maxRecDepth 16384

noncomputable section

namespace Cert.KernelIdeal.BlockValue

open Cert.KernelIdeal Cert.KernelIdeal.Gen Idealize.ShloMosaic Idealize.ShloMosaic.TcCoe Idealize.SL.Sem
open Idealize.ShloMosaic.Pipeline (Dat)
open Idealize.ShloMosaic.ValueIdx
open Cert.Lib.EdgeFeat Cert.Lib.SafeDiv

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## The bodies' payloads as whole-block functions -/

/-- The first kernel's stored value is the features of its block of lengths. -/
theorem pay0_eq (x0 : Vec Ideal S8000x1 .f32) (x1 : Vec Ideal S1x128 .f32) (x2 : Vec Ideal S128 .f32)
    (x3 : Vec Ideal S128x54 .f32) (x4 : Vec Ideal S54 .f32) :
    k0_pay1 (F := Ideal) x0 x1 x2 x3 x4 = feat x0 x1 (rowOf x2) x3 (rowOf x4) := by
  unfold k0_pay1
  exact Cert.Lib.EdgeFeat.kernel_eq (A := 8000) x0 x1 x2 x3 x4 _ _ _ _ _ _ _ _ _ _ rfl rfl rfl rfl rfl rfl _ _ _

/-- The second kernel's stored value is the guarded quotient of its two blocks. -/
theorem pay1_eq (x0 x1 : Vec Ideal S4000x64 .f32) : k1_pay1 (F := Ideal) x0 x1 = safeDivVec x0 x1 := by
  unfold k1_pay1
  rw [shapeCast_self, shapeCast_self]
  exact Cert.Lib.SafeDiv.kernel_eq x0 x1

/-! ## The second region -/

/-- The printed index maps of the second region, decided over its 400 points: all three windows are at block row t. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t of the second region writes back is block t of the guarded quotient of the two arrays. -/
theorem flushed1_eq (c : Dev nD) (t : Fin cfg1.N) :
    (dat1 V c).flushed 2 t = ((cfg1.win 2).blk t).view.read (Elt Ideal)
      (safeDivVec (V c main_v0 : S1600000x64.Idx → EReal) (V c main_v12 : S1600000x64.Idx → EReal)) := by
  show (cfg1.win 2).cut (grid1.coords t) ((dat1 V c).after 2 t) = _
  rw [after1_2]
  unfold out1_2
  rw [View.canon_unit_zero hz2]
  simp only [View.ld_unit_zero (S := S4000x64) hz2]
  rw [pay1_eq]
  obtain ⟨e0, e1, e2, e3, e4, e5⟩ := idx_facts1 t
  funext j
  show safeDiv (V c main_v0 (((cfg1.win 0).blk t).view.emb j)) (V c main_v12 (((cfg1.win 1).blk t).view.emb j))
    = safeDiv (V c main_v0 (((cfg1.win 2).blk t).view.emb j)) (V c main_v12 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 4000 + 1 * (j 0).val = win1_2.index t (0 : Fin 2) * 4000 + 1 * (j 0).val; omega
    | ⟨1, _⟩ => show win1_1.index t (1 : Fin 2) * 64 + 1 * (j 1).val = win1_2.index t (1 : Fin 2) * 64 + 1 * (j 1).val; omega
  rw [h0, h1]

/-- An index of the result array is in point t's block iff each coordinate is in the block's range on its axis. -/
theorem mem_blk1 (t : Fin cfg1.N) (i : S1600000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v13).slice (win1_2.rect t)).set ↔ _
  rw [View.set_slice_whole, Rect.mem_set_unit]
  exact Iff.rfl

/-- Every entry of the result array is in the block of the point its row falls to. -/
theorem cover1 (i : S1600000x64.Idx) : ∃ t : Fin cfg1.N, (cfg1.win 2).flush t = true ∧ i ∈ ((cfg1.win 2).blk t).view.set := by
  have hi0 : (i 0).val < 1600000 := (i 0).isLt
  have hi1 : (i 1).val < 64 := (i 1).isLt
  have hN : cfg1.N = 400 := N_1
  refine ⟨⟨(i 0).val / 4000, by rw [hN]; omega⟩, flush1_2 _, ?_⟩
  rw [mem_blk1]
  obtain ⟨-, -, -, -, e4, e5⟩ := idx_facts1 ⟨(i 0).val / 4000, by rw [hN]; omega⟩
  intro a
  match a with
  | ⟨0, _⟩ =>
    show win1_2.index _ (0 : Fin 2) * 4000 ≤ (i 0).val ∧ (i 0).val < win1_2.index _ (0 : Fin 2) * 4000 + 4000
    rw [e4]; show (i 0).val / 4000 * 4000 ≤ (i 0).val ∧ (i 0).val < (i 0).val / 4000 * 4000 + 4000; omega
  | ⟨1, _⟩ =>
    show win1_2.index _ (1 : Fin 2) * 64 ≤ (i 1).val ∧ (i 1).val < win1_2.index _ (1 : Fin 2) * 64 + 64
    rw [e5]; omega

/-- THE SECOND REGION'S RESULT: the guarded quotient of the feature array by the gathered sums, as the region finds them. -/
theorem final1 (c : Dev nD) : (dat1 V c).arrAt 2 cfg1.N
    = safeDivVec (V c main_v0 : S1600000x64.Idx → EReal) (V c main_v12 : S1600000x64.Idx → EReal) :=
  (dat1 V c).arrAt_eq_of_cover 2 _ (fun t _ => flushed1_eq V c t) cover1

/-! ## The first region -/

/-- The printed index maps of the first region, decided over its 200 points: the lengths and the features are at block
    row t, the weight arrays whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The weight windows' blocks are the whole arrays. -/
theorem iblk0_1 (c : Dev nD) (t : Fin cfg0.N) : iblk0 V c 1 t = (V c main_arg3 : S1x128.Idx → EReal) := by
  obtain ⟨-, -, e2, e3, -⟩ := idx_facts0 t
  funext y
  show V c main_arg3 (((cfg0.win 1).blk t).view.emb y) = V c main_arg3 y
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 128 + 1 * (y 1).val = (y 1).val; omega

theorem iblk0_2 (c : Dev nD) (t : Fin cfg0.N) : iblk0 V c 2 t = (V c main_arg4 : S128.Idx → EReal) := by
  obtain ⟨-, -, -, -, e4, -⟩ := idx_facts0 t
  funext y
  show V c main_arg4 (((cfg0.win 2).blk t).view.emb y) = V c main_arg4 y
  refine congrArg _ (funext fun a => Fin.ext ?_)
  match a with
  | ⟨0, _⟩ => show win0_2.index t (0 : Fin 1) * 128 + 1 * (y 0).val = (y 0).val; omega

theorem iblk0_3 (c : Dev nD) (t : Fin cfg0.N) : iblk0 V c 3 t = (V c main_arg5 : S128x54.Idx → EReal) := by
  obtain ⟨-, -, -, -, -, e5, e6, -⟩ := idx_facts0 t
  funext y
  show V c main_arg5 (((cfg0.win 3).blk t).view.emb y) = V c main_arg5 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 54 + 1 * (y 1).val = (y 1).val; omega

theorem iblk0_4 (c : Dev nD) (t : Fin cfg0.N) : iblk0 V c 4 t = (V c main_arg6 : S54.Idx → EReal) := by
  obtain ⟨-, -, -, -, -, -, -, e7, -⟩ := idx_facts0 t
  funext y
  show V c main_arg6 (((cfg0.win 4).blk t).view.emb y) = V c main_arg6 y
  refine congrArg _ (funext fun a => Fin.ext ?_)
  match a with
  | ⟨0, _⟩ => show win0_4.index t (0 : Fin 1) * 54 + 1 * (y 0).val = (y 0).val; omega

/-- What point t of the first region writes back is block t of the features of the whole column of lengths. -/
theorem flushed0_eq (c : Dev nD) (t : Fin cfg0.N) :
    (dat0 V c).flushed 5 t = ((cfg0.win 5).blk t).view.read (Elt Ideal)
      (feat (V c main_arg2 : S1600000x1.Idx → EReal) (V c main_arg3 : S1x128.Idx → EReal) (rowOf (V c main_arg4 : S128.Idx → EReal))
        (V c main_arg5 : S128x54.Idx → EReal) (rowOf (V c main_arg6 : S54.Idx → EReal))) := by
  show (cfg0.win 5).cut (grid0.coords t) ((dat0 V c).after 5 t) = _
  rw [after0_5]
  unfold out0_5
  rw [View.canon_unit_zero hz2]
  simp only [View.ld_unit_zero (S := S8000x1) hz2, View.ld_unit_zero (S := S1x128) hz2, View.ld_unit_zero (S := S128) hz1,
    View.ld_unit_zero (S := S128x54) hz2, View.ld_unit_zero (S := S54) hz1]
  rw [pay0_eq, iblk0_1, iblk0_2, iblk0_3, iblk0_4]
  obtain ⟨e0, e1, -, -, -, -, -, -, e8, e9⟩ := idx_facts0 t
  have ht : t.val < 200 := lt_of_lt_of_eq t.isLt N_0
  funext j
  obtain ⟨r, k, rfl⟩ : ∃ (r : Fin 8000) (k : Fin 64), j = ix2 r k := ⟨j 0, j 1, eq_ix2 j⟩
  have hr : r.val < 8000 := r.isLt
  have hemb : ((cfg0.win 5).blk t).view.emb (ix2 r k) = ix2 (⟨t.val * 8000 + r.val, by omega⟩ : Fin 1600000) k := by
    funext a; apply Fin.ext
    match a with
    | ⟨0, _⟩ => show win0_5.index t (0 : Fin 2) * 8000 + 1 * r.val = t.val * 8000 + r.val; rw [e8]; omega
    | ⟨1, _⟩ => show win0_5.index t (1 : Fin 2) * 64 + 1 * k.val = k.val; rw [e9]; omega
  show feat (iblk0 V c 0 t) _ _ _ _ (ix2 r k) = feat _ _ _ _ _ (((cfg0.win 5).blk t).view.emb (ix2 r k))
  rw [hemb]
  refine feat_congr _ _ _ _ _ _ r _ k ?_
  show V c main_arg2 (((cfg0.win 0).blk t).view.emb (ix2 r (0 : Fin 1))) = V c main_arg2 (ix2 (⟨t.val * 8000 + r.val, by omega⟩ : Fin 1600000) (0 : Fin 1))
  refine congrArg _ (funext fun a => Fin.ext ?_)
  match a with
  | ⟨0, _⟩ => show win0_0.index t (0 : Fin 2) * 8000 + 1 * r.val = t.val * 8000 + r.val; rw [e0]; omega
  | ⟨1, _⟩ => show win0_0.index t (1 : Fin 2) * 1 + 1 * 0 = 0; rw [e1]

/-- An index of the feature array is in point t's block iff each coordinate is in the block's range on its axis. -/
theorem mem_blk0 (t : Fin cfg0.N) (i : S1600000x64.Idx) :
    i ∈ ((cfg0.win 5).blk t).view.set ↔ ∀ a : Fin 2, win0_5.index t a * S8000x64.size a ≤ (i a).val ∧ (i a).val < win0_5.index t a * S8000x64.size a + S8000x64.size a := by
  show i ∈ ((View.whole main_v0).slice (win0_5.rect t)).set ↔ _
  rw [View.set_slice_whole, Rect.mem_set_unit]
  exact Iff.rfl

/-- Every entry of the feature array is in the block of the point its row falls to. -/
theorem cover0 (i : S1600000x64.Idx) : ∃ t : Fin cfg0.N, (cfg0.win 5).flush t = true ∧ i ∈ ((cfg0.win 5).blk t).view.set := by
  have hi0 : (i 0).val < 1600000 := (i 0).isLt
  have hi1 : (i 1).val < 64 := (i 1).isLt
  have hN : cfg0.N = 200 := N_0
  refine ⟨⟨(i 0).val / 8000, by rw [hN]; omega⟩, flush0_5 _, ?_⟩
  rw [mem_blk0]
  obtain ⟨-, -, -, -, -, -, -, -, e8, e9⟩ := idx_facts0 ⟨(i 0).val / 8000, by rw [hN]; omega⟩
  intro a
  match a with
  | ⟨0, _⟩ =>
    show win0_5.index _ (0 : Fin 2) * 8000 ≤ (i 0).val ∧ (i 0).val < win0_5.index _ (0 : Fin 2) * 8000 + 8000
    rw [e8]; show (i 0).val / 8000 * 8000 ≤ (i 0).val ∧ (i 0).val < (i 0).val / 8000 * 8000 + 8000; omega
  | ⟨1, _⟩ =>
    show win0_5.index _ (1 : Fin 2) * 64 ≤ (i 1).val ∧ (i 1).val < win0_5.index _ (1 : Fin 2) * 64 + 64
    rw [e9]; omega

/-- THE FIRST REGION'S RESULT: the features of every edge, from the column of lengths and the weights as the region
    finds them. -/
theorem final0 (c : Dev nD) : (dat0 V c).arrAt 5 cfg0.N
    = feat (V c main_arg2 : S1600000x1.Idx → EReal) (V c main_arg3 : S1x128.Idx → EReal) (rowOf (V c main_arg4 : S128.Idx → EReal))
        (V c main_arg5 : S128x54.Idx → EReal) (rowOf (V c main_arg6 : S54.Idx → EReal)) :=
  (dat0 V c).arrAt_eq_of_cover 5 _ (fun t _ => flushed0_eq V c t) cover0

end Cert.KernelIdeal.BlockValue

end
-- ==== Proof.KernelValue.lean ====
/-
  THE IDEALIZED KERNEL'S RESULT AS ONE FUNCTION OF ITS ARGUMENTS.

  Between the two kernel regions the host takes row 0 of the edge index (the source node of every edge), adds every
  edge's feature row into the row of its source node (a scatter-add into zeros: the per-node sums) and reads the sums
  back at every edge's source node (a gather, a negative index wrapped by the number of nodes first).  `gathered w ei` is
  that stretch's result as a function of the feature array and the edge index; it is never opened.

  The first region leaves the features  feat  of the lengths and weights; the host stretch reads them and the edge index,
  and leaves both in place; the second region divides the features by the gathered sums, guarded against zero.  So the
  result array is   safeDiv (feat …) (gathered (feat …) edge_index)   entry by entry.
-/
import proofs.«162413_j5497558139184_2_alg».proof.Proof.KernelBlocks
import Idealize.ShloMosaic.Lib.StableHlo.Run

set_option maxRecDepth 16384

noncomputable section

namespace Cert.KernelIdeal.ResultValue

open Cert.KernelIdeal Cert.KernelIdeal.Gen Idealize.ShloMosaic Idealize.ShloMosaic.TcCoe Idealize.SL.Sem
open Idealize.ShloMosaic.StableHlo
open Idealize.ShloMosaic.ValueIdx
open Cert.Lib.EdgeFeat Cert.Lib.SafeDiv Cert.KernelIdeal.BlockValue

/-- The host stretch between the regions: the per-node sums of the feature rows (scatter-add by source node into
    zeros), read back at every edge's source node. -/
def gathered (w : S1600000x64.Idx → EReal) (ei : IVec S2x1600000 32) : S1600000x64.Idx → EReal :=
  Host.gather gather_S100000x64_S1600000x1_S1600000x64_1_0_n_n_0_1_164
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0
        (shapeCast _ (extractStridedSlice S1x1600000 ![0, 0] ei slices_S2x1600000_S1x1600000_0_0) shapeCasts_S1x1600000_S1600000))
      w)
    (broadcastInDim S1600000x1 ![0] bcast_S1600000_S1600000x1_0
      (select
        (cmpi .slt (shapeCast _ (extractStridedSlice S1x1600000 ![0, 0] ei slices_S2x1600000_S1x1600000_0_0) shapeCasts_S1x1600000_S1600000)
          (broadcastInDim S1600000 ![] bcast_S_S1600000 (constantI S_ 32 0#32)))
        (addi (shapeCast _ (extractStridedSlice S1x1600000 ![0, 0] ei slices_S2x1600000_S1x1600000_0_0) shapeCasts_S1x1600000_S1600000)
          (broadcastInDim S1600000 ![] bcast_S_S1600000 (constantI S_ 32 100000#32)))
        (shapeCast _ (extractStridedSlice S1x1600000 ![0, 0] ei slices_S2x1600000_S1x1600000_0_0) shapeCasts_S1x1600000_S1600000)))

/-- The host stretch leaves the gathered sums in its last buffer, from any contents it starts at. -/
theorem after_gathered (W : Valuation τ sig (Elt Ideal)) :
    StableHlo.after hostOps1 W (Proc.devRef .tc main_v12)
      = gathered (W (Proc.devRef .tc main_v0)) (W (Proc.devRef .tc main_arg1)) := by
  after_results
  rfl

/-- The host stretch does not write the feature array. -/
theorem after_features (W : Valuation τ sig (Elt Ideal)) :
    StableHlo.after hostOps1 W (Proc.devRef .tc main_v0) = W (Proc.devRef .tc main_v0) :=
  StableHlo.after_of_forall_not_mem (b := Proc.devRef .tc main_v0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

variable (m : (ℓ : Loc nD τ sig) → Buf (Elt Ideal) ℓ) (ρ : Dev nD → PrngReg)

/-- The features of every edge, from the arguments as launched. -/
abbrev features (c : Dev nD) : S1600000x64.Idx → EReal :=
  feat (m ((c.tc : Thread nD τ).loc main_arg2) : S1600000x1.Idx → EReal) (m ((c.tc : Thread nD τ).loc main_arg3) : S1x128.Idx → EReal)
    (rowOf (m ((c.tc : Thread nD τ).loc main_arg4) : S128.Idx → EReal)) (m ((c.tc : Thread nD τ).loc main_arg5) : S128x54.Idx → EReal)
    (rowOf (m ((c.tc : Thread nD τ).loc main_arg6) : S54.Idx → EReal))

/-- After the first region the feature array holds the features. -/
theorem W1_features (c : Dev nD) : W1 m ρ c (Proc.devRef .tc main_v0) = features m c :=
  (W1_arr m ρ c 5).trans (final0 (V0 m ρ) c)

/-- THE RESULT: the features divided, guarded, by their per-node sums gathered back. -/
theorem result_eq (c : Dev nD) : W3 m ρ c (Proc.devRef .tc main_v13)
    = safeDivVec (features m c) (gathered (features m c) (m ((c.tc : Thread nD τ).loc main_arg1))) := by
  have h12 : V2 m ρ c main_v12 = gathered (features m c) (m ((c.tc : Thread nD τ).loc main_arg1)) := by
    show StableHlo.after hostOps1 (W1 m ρ c) (Proc.devRef .tc main_v12) = _
    rw [after_gathered, W1_features, W1_of_ne m ρ c main_arg1 (by decide)]
  have h0 : V2 m ρ c main_v0 = features m c := by
    show StableHlo.after hostOps1 (W1 m ρ c) (Proc.devRef .tc main_v0) = _
    rw [after_features, W1_features]
  refine (W3_arr m ρ c 2).trans ((final1 (V2 m ρ) c).trans ?_)
  rw [h0, h12]

end Cert.KernelIdeal.ResultValue

end
-- ==== Proof.RefValue.lean ====
/-
  THE IDEALIZED REFERENCE'S RESULT AS THE SAME FUNCTION OF ITS ARGUMENTS.

  The reference computes the feature array  feat  of the lengths and weights in host operations (the bucket indicator
  by a division by one, a clamp and a comparison with an iota; the two dense layers as dot_general; a concatenate), the
  per-node sums gathered back (`gathered`: the same scatter-add and gather the kernel's host stretch runs), and the guarded
  quotient of the two.
-/
import proofs.«162413_j5497558139184_2_alg».proof.Proof.Gen.ReferenceIdeal.Read
import proofs.«162413_j5497558139184_2_alg».proof.Proof.LibEdgeFeat
import proofs.«162413_j5497558139184_2_alg».proof.Proof.LibSafeDiv

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx
open Cert.Lib.EdgeFeat Cert.Lib.SafeDiv

/-- The per-node sums of the feature rows (scatter-add by source node into zeros), read back at every edge's source
    node. -/
def gathered (w : S1600000x64.Idx → EReal) (ei : IVec S2x1600000 32) : S1600000x64.Idx → EReal :=
  Host.gather gather_S100000x64_S1600000x1_S1600000x64_1_0_n_n_0_1_164
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0
        (shapeCast _ (extractStridedSlice S1x1600000 ![0, 0] ei slices_S2x1600000_S1x1600000_0_0) shapeCasts_S1x1600000_S1600000))
      w)
    (broadcastInDim S1600000x1 ![0] bcast_S1600000_S1600000x1_0
      (select
        (cmpi .slt (shapeCast _ (extractStridedSlice S1x1600000 ![0, 0] ei slices_S2x1600000_S1x1600000_0_0) shapeCasts_S1x1600000_S1600000)
          (broadcastInDim S1600000 ![] bcast_S_S1600000 (constantI S_ 32 0#32)))
        (addi (shapeCast _ (extractStridedSlice S1x1600000 ![0, 0] ei slices_S2x1600000_S1x1600000_0_0) shapeCasts_S1x1600000_S1600000)
          (broadcastInDim S1600000 ![] bcast_S_S1600000 (constantI S_ 32 100000#32)))
        (shapeCast _ (extractStridedSlice S1x1600000 ![0, 0] ei slices_S2x1600000_S1x1600000_0_0) shapeCasts_S1x1600000_S1600000)))

variable (x1 : (⟨S2x1600000, .i32⟩ : BufTy).Contents (Elt Ideal)) (x2 : (⟨S1600000x1, .f32⟩ : BufTy).Contents (Elt Ideal))
  (x3 : (⟨S1x128, .f32⟩ : BufTy).Contents (Elt Ideal)) (x4 : (⟨S128, .f32⟩ : BufTy).Contents (Elt Ideal))
  (x5 : (⟨S128x54, .f32⟩ : BufTy).Contents (Elt Ideal)) (x6 : (⟨S54, .f32⟩ : BufTy).Contents (Elt Ideal))

/-- The reference's feature array is the features. -/
theorem features_eq : val_main_v16 (F := Ideal) x2 x3 x4 x5 x6
    = feat (x2 : S1600000x1.Idx → EReal) (x3 : S1x128.Idx → EReal) (rowOf (x4 : S128.Idx → EReal)) (x5 : S128x54.Idx → EReal)
        (rowOf (x6 : S54.Idx → EReal)) := by
  unfold val_main_v16 val_main_v5 val_main_call1_v4 val_main_call1_v3 val_main_call1_v2 val_main_call1_v1 val_main_call1_v0
    val_main_v4 val_main_call0_v4 val_main_call0_v3 val_main_call0_v2 val_main_call0_v1 val_main_call0_v0 val_main_c_0 val_main_c
    val_main_v3 val_main_v2 val_main_v1 val_main_cst val_main_v0
    val_main_v15 val_main_call3_v0 val_main_call3_cst val_main_v14 val_main_v13 val_main_v12 val_main_v11 val_main_v10
    val_main_call2_v0 val_main_call2_cst val_main_v9 val_main_v8 val_main_v7 val_main_v6
  exact Cert.Lib.EdgeFeat.host_eq (A := 1600000) x2 x3 x4 x5 x6 _ _ _ _ _ _ rfl rfl rfl rfl rfl rfl _ _ _ _ rfl rfl rfl rfl rfl rfl _ _ _ _

/-- THE RESULT: the features divided, guarded, by their per-node sums gathered back. -/
theorem result_eq : val_main_v33 (F := Ideal) x1 x2 x3 x4 x5 x6
    = safeDivVec (feat (x2 : S1600000x1.Idx → EReal) (x3 : S1x128.Idx → EReal) (rowOf (x4 : S128.Idx → EReal)) (x5 : S128x54.Idx → EReal)
          (rowOf (x6 : S54.Idx → EReal)))
        (gathered (feat (x2 : S1600000x1.Idx → EReal) (x3 : S1x128.Idx → EReal) (rowOf (x4 : S128.Idx → EReal)) (x5 : S128x54.Idx → EReal)
          (rowOf (x6 : S54.Idx → EReal))) x1) := by
  have h1 : val_main_v33 (F := Ideal) x1 x2 x3 x4 x5 x6
      = safeDivVec (val_main_v16 (F := Ideal) x2 x3 x4 x5 x6) (val_main_v28 (F := Ideal) x1 x2 x3 x4 x5 x6) :=
    Cert.Lib.SafeDiv.host_eq (val_main_v16 (F := Ideal) x2 x3 x4 x5 x6) (val_main_v28 (F := Ideal) x1 x2 x3 x4 x5 x6) bcast_S_S1600000x64
  have h2 : val_main_v28 (F := Ideal) x1 x2 x3 x4 x5 x6 = gathered (val_main_v16 (F := Ideal) x2 x3 x4 x5 x6) x1 := rfl
  rw [h1, h2, features_eq]

end Cert.ReferenceIdeal.RefValue

end
-- ==== Proof.lean ====
/-
  Two programs compute, for every edge of a graph, 64 features of its length divided by the sums of those features over
  the edges sharing its source node:

      result (e, k) = w (e, k) / D (e, k)  where D (e, k) ≠ 0,  and 0 where D (e, k) = 0,
      D (e, ·) = sum of the rows w (e', ·) over the edges e' with the source node of e,
      w (e, ·) = [ indicator of the bucket of the length of e (10 values) | a two-layer perceptron of the length (54 values) ].

  The kernel computes w tile by tile in a first kernel region (the first layer, whose contraction has one term, as a
  product of broadcasts; the second on the matrix unit after rounding to bf16), the sums D in host operations between the
  regions, and the quotient tile by tile in a second region.  The reference computes all of it in host operations.

  At the ideal values both are the same function of the arguments, entry by entry:
  * the bucket of a length: the kernel multiplies by the constant 1 where the reference divides by it (x · 1 = x / 1 = x
    on every extended real), then both truncate, clamp and compare alike; the kernel widens the comparison's bit to a
    word and converts it signed, the reference converts the bit unsigned: 0 or 1 either way;
  * the layers: a product with one term is that term; rounding to bf16 is the identity; a matmul into zero is the host's
    product; the bias vector as a broadcast row either way;
  * the sums gathered back: the same host operations in both programs, of the same feature array and edge index;
  * the guarded quotient: the ordered and unordered "not equal" agree on extended reals, and the kernel's division is the
    host's.
  No step uses that an input is finite.  The kernel's idealization rewrote nothing, so that claim is trivial.
-/
import proofs.«162413_j5497558139184_2_alg».proof.Defs
import proofs.«162413_j5497558139184_2_alg».proof.Proof.Gen.Kernel
import proofs.«162413_j5497558139184_2_alg».proof.Proof.Gen.Kernel.Skeleton
import proofs.«162413_j5497558139184_2_alg».proof.Proof.Gen.Kernel.Launch
import proofs.«162413_j5497558139184_2_alg».proof.Proof.Gen.Kernel.Points
import proofs.«162413_j5497558139184_2_alg».proof.Proof.Gen.Kernel.Frame
import proofs.«162413_j5497558139184_2_alg».proof.Proof.Gen.KernelIdeal
import proofs.«162413_j5497558139184_2_alg».proof.Proof.Gen.KernelIdeal.Skeleton
import proofs.«162413_j5497558139184_2_alg».proof.Proof.Gen.KernelIdeal.Launch
import proofs.«162413_j5497558139184_2_alg».proof.Proof.Gen.KernelIdeal.Points
import proofs.«162413_j5497558139184_2_alg».proof.Proof.Gen.KernelIdeal.Frame
import proofs.«162413_j5497558139184_2_alg».proof.Proof.Gen.ReferenceIdeal
import proofs.«162413_j5497558139184_2_alg».proof.Proof.Gen.Pre_finite_inputs
import proofs.«162413_j5497558139184_2_alg».proof.Proof.Gen.ReferenceIdeal.Run
import proofs.«162413_j5497558139184_2_alg».proof.Proof.Gen.ReferenceIdeal.Read
import proofs.«162413_j5497558139184_2_alg».proof.Proof.KernelRun
import proofs.«162413_j5497558139184_2_alg».proof.Proof.KernelValue
import proofs.«162413_j5497558139184_2_alg».proof.Proof.RefValue
import Idealize.ShloMosaic.Adequacy
import Idealize.ShloMosaic.Init

noncomputable section

namespace Cert.Proof

open Idealize.ShloMosaic Idealize.SL.Sem

/-- Both programs run the same host operations for the per-node sums gathered back. -/
theorem gathered_eq (w : Cert.KernelIdeal.S1600000x64.Idx → EReal) (ei : IVec Cert.KernelIdeal.S2x1600000 32) :
    Cert.ReferenceIdeal.RefValue.gathered w ei = Cert.KernelIdeal.ResultValue.gathered w ei := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both runs end with the result array at the guarded quotient of the features
    by their gathered per-node sums. -/
theorem algebraic : Cert.algebraic_KernelIdeal_ReferenceIdeal := by
  intro m ρ m' ρ' _ hagree
  refine ⟨fun c => Cert.Lib.SafeDiv.safeDivVec (Cert.KernelIdeal.ResultValue.features m c)
      (Cert.KernelIdeal.ResultValue.gathered (Cert.KernelIdeal.ResultValue.features m c)
        (m ((c.tc : Thread Cert.KernelIdeal.nD Cert.KernelIdeal.τ).loc Cert.KernelIdeal.main_arg1))), ?_, ?_⟩
  · exact (θ_run Cert.KernelIdeal.defs _ _).mono
      (fun _ h c => ⟨(h c).1.trans (Cert.KernelIdeal.ResultValue.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨-, a1, a2, a3, a4, a5, a6⟩ := hagree c
    rw [Cert.ReferenceIdeal.Read.val_main_v33_eq, Cert.ReferenceIdeal.RefValue.result_eq, a1, a2, a3, a4, a5, a6, gathered_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
